-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S32x1 .f32) (main_arg8 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x32 : Shape := ⟨2, ![100000, 32]⟩
abbrev S10000x128 : Shape := ⟨2, ![10000, 128]⟩
abbrev S10000x32 : Shape := ⟨2, ![10000, 32]⟩
abbrev S3200000x32 : Shape := ⟨2, ![3200000, 32]⟩
abbrev S1x32 : Shape := ⟨2, ![1, 32]⟩
abbrev S100000x1 : Shape := ⟨2, ![100000, 1]⟩
abbrev S10000x1 : Shape := ⟨2, ![10000, 1]⟩
abbrev S64x32 : Shape := ⟨2, ![64, 32]⟩
abbrev S64 : Shape := ⟨1, ![64]⟩
abbrev S64x1 : Shape := ⟨2, ![64, 1]⟩
abbrev S1x1 : Shape := ⟨2, ![1, 1]⟩

abbrev nBuf : Space → Nat
  | .hbm => 111
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S100000, .f32⟩
  | .hbm, ⟨43, _⟩ => ⟨S100000x32, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x32, .f32⟩
  | .hbm, ⟨53, _⟩ => ⟨S3200000x1, .f32⟩
  | .hbm, ⟨54, _⟩ => ⟨S3200000x32, .f32⟩
  | .hbm, ⟨55, _⟩ => ⟨S3200000x32, .f32⟩
  | .hbm, ⟨56, _⟩ => ⟨S_, .f32⟩
  | .hbm, ⟨57, _⟩ => ⟨S100000x32, .f32⟩
  | .hbm, ⟨58, _⟩ => ⟨S3200000x1, .i32⟩
  | .hbm, ⟨59, _⟩ => ⟨S100000x32, .f32⟩
  | .hbm, ⟨60, _⟩ => ⟨S1x32, .f32⟩
  | .hbm, ⟨61, _⟩ => ⟨S100000x1, .f32⟩
  | .hbm, ⟨62, _⟩ => ⟨S100000x32, .f32⟩
  | .hbm, ⟨63, _⟩ => ⟨S100000x32, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x32, .f32⟩
  | .hbm, ⟨73, _⟩ => ⟨S3200000x1, .f32⟩
  | .hbm, ⟨74, _⟩ => ⟨S3200000x32, .f32⟩
  | .hbm, ⟨75, _⟩ => ⟨S3200000x32, .f32⟩
  | .hbm, ⟨76, _⟩ => ⟨S_, .f32⟩
  | .hbm, ⟨77, _⟩ => ⟨S100000x32, .f32⟩
  | .hbm, ⟨78, _⟩ => ⟨S3200000x1, .i32⟩
  | .hbm, ⟨79, _⟩ => ⟨S100000x32, .f32⟩
  | .hbm, ⟨80, _⟩ => ⟨S1x32, .f32⟩
  | .hbm, ⟨81, _⟩ => ⟨S100000x1, .f32⟩
  | .hbm, ⟨82, _⟩ => ⟨S100000x32, .f32⟩
  | .hbm, ⟨83, _⟩ => ⟨S_, .f32⟩
  | .hbm, ⟨84, _⟩ => ⟨S64x32, .f32⟩
  | .hbm, ⟨85, _⟩ => ⟨S100000x1, .i32⟩
  | .hbm, ⟨86, _⟩ => ⟨S64x32, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S64, .f32⟩
  | .hbm, ⟨91, _⟩ => ⟨S100000x1, .i32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S64x1, .f32⟩
  | .hbm, ⟨97, _⟩ => ⟨S64x32, .f32⟩
  | .hbm, ⟨98, _⟩ => ⟨S64x32, .f32⟩
  | .hbm, ⟨99, _⟩ => ⟨S64x1, .f32⟩
  | .hbm, ⟨100, _⟩ => ⟨S1x1, .f32⟩
  | .hbm, ⟨101, _⟩ => ⟨S64x1, .f32⟩
  | .hbm, ⟨102, _⟩ => ⟨S64x1, .f32⟩
  | .hbm, ⟨103, _⟩ => ⟨S64x1, .f32⟩
  | .hbm, ⟨104, _⟩ => ⟨S64x1, .f32⟩
  | .hbm, ⟨105, _⟩ => ⟨S_, .f32⟩
  | .hbm, ⟨106, _⟩ => ⟨S64x1, .f32⟩
  | .hbm, ⟨107, _⟩ => ⟨S64x1, .f32⟩
  | .hbm, ⟨108, _⟩ => ⟨S_, .f32⟩
  | .hbm, ⟨109, _⟩ => ⟨S64x1, .f32⟩
  | .hbm, ⟨110, _⟩ => ⟨S64x1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x1, .f32⟩
  | .local _ .vmem, ⟨24, _⟩ => ⟨S10000x1, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_v82 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S100000_S100000x1 : S100000.ShapeCasts S100000x1
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x32_S10000x32_1_0_0_1_n_n_wf : DotDims.WF S10000x128 S128x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x32_S10000x32_1_0_0_1_n_n_wf : DotDims.WF S10000x32 S32x32 S10000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S100000x32.size a
  hwx3_4 : ∀ i : grid3.Coords, EltTy.bits .f32 = 32 ∨ (Rect.block (s := S100000x32) S10000x32.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x32 : Shape := ⟨2, ![100000, 32]⟩
abbrev S3200000x32 : Shape := ⟨2, ![3200000, 32]⟩
abbrev S100000x1 : Shape := ⟨2, ![100000, 1]⟩
abbrev S1x32 : Shape := ⟨2, ![1, 32]⟩
abbrev S64x32 : Shape := ⟨2, ![64, 32]⟩
abbrev S64 : Shape := ⟨1, ![64]⟩
abbrev S64x1 : Shape := ⟨2, ![64, 1]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x1, .f32⟩
  | 8 => ⟨S1, .f32⟩
  | 9 => ⟨S1x3200000, .i32⟩
  | 10 => ⟨S3200000, .i32⟩
  | 11 => ⟨S1x3200000, .i32⟩
  | 12 => ⟨S3200000, .i32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S100000x32, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S3200000x1, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x32, .f32⟩
  | 53 => ⟨S3200000x32, .f32⟩
  | 54 => ⟨S3200000x32, .f32⟩
  | 55 => ⟨S_, .f32⟩
  | 56 => ⟨S100000x32, .f32⟩
  | 57 => ⟨S3200000x1, .i32⟩
  | 58 => ⟨S100000x32, .f32⟩
  | 59 => ⟨S100000, .f32⟩
  | 60 => ⟨S100000x1, .f32⟩
  | 61 => ⟨S100000x32, .f32⟩
  | 62 => ⟨S100000x32, .f32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S_, .f32⟩
  | 71 => ⟨S3200000, .f32⟩
  | 72 => ⟨S_, .f32⟩
  | 73 => ⟨S100000, .f32⟩
  | 74 => ⟨S3200000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S100000x32, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S3200000, .f32⟩
  | 100 => ⟨S3200000x1, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x32, .f32⟩
  | 110 => ⟨S3200000x32, .f32⟩
  | 111 => ⟨S3200000x32, .f32⟩
  | 112 => ⟨S_, .f32⟩
  | 113 => ⟨S100000x32, .f32⟩
  | 114 => ⟨S3200000x1, .i32⟩
  | 115 => ⟨S100000x32, .f32⟩
  | 116 => ⟨S100000, .f32⟩
  | 117 => ⟨S100000x1, .f32⟩
  | 118 => ⟨S100000x32, .f32⟩
  | 119 => ⟨S100000x32, .f32⟩
  | 120 => ⟨S100000x32, .f32⟩
  | 121 => ⟨S1x32, .f32⟩
  | 122 => ⟨S100000x32, .f32⟩
  | 123 => ⟨S100000x32, .f32⟩
  | 124 => ⟨S_, .f32⟩
  | 125 => ⟨S100000x32, .f32⟩
  | 126 => ⟨S100000x32, .f32⟩
  | 127 => ⟨S_, .f32⟩
  | _ => ⟨S100000x128, .f32⟩

abbrev hbmTy0_1 (i : Nat) : BufTy := match i % 128 with
  | 0 => ⟨S64x32, .f32⟩
  | 1 => ⟨S100000x1, .i32⟩
  | 2 => ⟨S64x32, .f32⟩
  | 3 => ⟨S_, .f32⟩
  | 4 => ⟨S100000, .f32⟩
  | 5 => ⟨S_, .f32⟩
  | 6 => ⟨S64, .f32⟩
  | 7 => ⟨S100000x1, .i32⟩
  | 8 => ⟨S64, .f32⟩
  | 9 => ⟨S_, .f32⟩
  | 10 => ⟨S64, .f32⟩
  | 11 => ⟨S64, .f32⟩
  | 12 => ⟨S64x1, .f32⟩
  | 13 => ⟨S64x32, .f32⟩
  | 14 => ⟨S64x32, .f32⟩
  | 15 => ⟨S64x1, .f32⟩
  | 16 => ⟨S1x1, .f32⟩
  | 17 => ⟨S64x1, .f32⟩
  | 18 => ⟨S64x1, .f32⟩
  | 19 => ⟨S64x1, .f32⟩
  | 20 => ⟨S64x1, .f32⟩
  | 21 => ⟨S_, .f32⟩
  | 22 => ⟨S64x1, .f32⟩
  | 23 => ⟨S64x1, .f32⟩
  | 24 => ⟨S_, .f32⟩
  | 25 => ⟨S64x1, .f32⟩
  | 26 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_22 : Ref sig .tc := ⟨.hbm, 149, rfl⟩
abbrev main_v112 : Ref sig .tc := ⟨.hbm, 150, rfl⟩
abbrev main_v113 : Ref sig .tc := ⟨.hbm, 151, rfl⟩
abbrev main_cst_23 : Ref sig .tc := ⟨.hbm, 152, rfl⟩
abbrev main_v114 : Ref sig .tc := ⟨.hbm, 153, rfl⟩
abbrev main_v115 : Ref sig .tc := ⟨.hbm, 154, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S3200000x1_S3200000_n_0_0_1_wf : ScatterDims.WF S100000 S3200000x1 S3200000 [] [0] [0] 1
  dot_S100000x128_S128x32_S100000x32_1_0_0_1_n_n_wf : DotDims.WF S100000x128 S128x32 S100000x32 [1] [0] [0] [1] [] []
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x1_S64x1_1_0_0_1_n_n_wf : DotDims.WF S64x32 S32x1 S64x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.KRun.lean ====
/-
  The idealized kernel's run with its two results named.

  @main is eight segments: stretches of host operations and four launches.  The buffer contents at each boundary are a
  fold from the launch memory: a stretch applies its operations, a launch replaces its output array by what its grid
  points wrote back and leaves every other buffer alone.  The run below states, for every weakly fair execution, that the
  two returned buffers end at the last boundary's contents and that the nine argument arrays end as launched.
-/
import proofs.«139690_j59768764891876_1_alg».proof.Defs
import proofs.«139690_j59768764891876_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the node embeddings and the graph predictions end
    at the last boundary's contents, and the arguments end as launched. -/
theorem run_values : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_v82) = W8 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       h c _ (mem_uc main_v82 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.KRun

end
-- ==== Proof.Keep.lean ====
/-
  Buffers that a stretch of @main does not write keep their contents across it.

  A stretch of host operations changes only the buffers its operations write; a launch changes only its output array.
  Each lemma below follows one buffer back across the boundaries between which nothing writes it: the four arrays computed
  from the edge list before the first launch (read again by both message-passing stretches), the two products (read by
  the epilogue launches), and the argument arrays read after the first boundary.
-/
import proofs.«139690_j59768764891876_1_alg».proof.Defs
import proofs.«139690_j59768764891876_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The feature matrix at the first launch. -/
theorem keep_arg0_1_0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- The first weight matrix at the first launch. -/
theorem keep_arg3_1_0 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- The first bias after the first launch. -/
theorem keep_arg4_2_0 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- The second weight matrix at the third launch. -/
theorem keep_arg5_4_0 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- The second bias after the third launch. -/
theorem keep_arg6_5_0 : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-- The graph assignment after the last launch. -/
theorem keep_arg2_7_0 : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- The classifier's weights after the last launch. -/
theorem keep_arg7_7_0 : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

/-- The classifier's bias after the last launch. -/
theorem keep_arg8_7_0 : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

/-- The edges' sources after the first launch. -/
theorem keep_v1_2_1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- The edges' targets after the first launch. -/
theorem keep_v3_2_1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- The per-edge coefficient after the first launch. -/
theorem keep_v25_2_1 : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)

/-- The per-node factor after the first launch. -/
theorem keep_v26_2_1 : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

/-- The edges' sources after the third launch. -/
theorem keep_v1_5_1 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)

/-- The edges' targets after the third launch. -/
theorem keep_v3_5_1 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := W2_of_ne m ρ c main_v3 (by decide)

/-- The per-edge coefficient after the third launch. -/
theorem keep_v25_5_1 : W5 m ρ c (Proc.devRef .tc main_v25) = W1 m ρ c (Proc.devRef .tc main_v25) :=
  calc W5 m ρ c (Proc.devRef .tc main_v25)
    _ = W4 m ρ c (Proc.devRef .tc main_v25) := W5_of_ne m ρ c main_v25 (by decide)
    _ = W3 m ρ c (Proc.devRef .tc main_v25) := W4_of_ne m ρ c main_v25 (by decide)
    _ = W2 m ρ c (Proc.devRef .tc main_v25) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v25) := W2_of_ne m ρ c main_v25 (by decide)

/-- The per-node factor after the third launch. -/
theorem keep_v26_5_1 : W5 m ρ c (Proc.devRef .tc main_v26) = W1 m ρ c (Proc.devRef .tc main_v26) :=
  calc W5 m ρ c (Proc.devRef .tc main_v26)
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v26) := W2_of_ne m ρ c main_v26 (by decide)

/-- The first product across the first message-passing stretch. -/
theorem keep_v27_3_2 : W3 m ρ c (Proc.devRef .tc main_v27) = W2 m ρ c (Proc.devRef .tc main_v27) :=
  calc W3 m ρ c (Proc.devRef .tc main_v27)
    _ = W2 m ρ c (Proc.devRef .tc main_v27) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The second product across the second message-passing stretch. -/
theorem keep_v44_6_5 : W6 m ρ c (Proc.devRef .tc main_v44) = W5 m ρ c (Proc.devRef .tc main_v44) :=
  calc W6 m ρ c (Proc.devRef .tc main_v44)
    _ = W5 m ρ c (Proc.devRef .tc main_v44) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The node embeddings across the pooling stretch. -/
theorem keep_v60_8_7 : W8 m ρ c (Proc.devRef .tc main_v60) = W7 m ρ c (Proc.devRef .tc main_v60) :=
  calc W8 m ρ c (Proc.devRef .tc main_v60)
    _ = W7 m ρ c (Proc.devRef .tc main_v60) := StableHlo.after_of_forall_not_mem _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Keep

end
-- ==== Proof.Fold0.lean ====
/-
  The buffer contents at the first boundary of the idealized kernel's @main, as functions of the argument arrays.

  Before the first launch the host computes, from the edge list alone: the source and the target of each edge, the
  per-edge coefficient dinv[src] · dinv[dst] and the per-node factor dinv², where dinv = (1 + in-degree)^(-1/2).  The
  reference program computes the same four arrays by the same operations, so each is named here by the reference's own
  stage of that name, applied to the kernel's argument.  The feature matrix and the first weight matrix are not written.
-/
import proofs.«139690_j59768764891876_1_alg».proof.Defs
import proofs.«139690_j59768764891876_1_alg».proof.Proof.Gen.KernelIdeal.Frame
import proofs.«139690_j59768764891876_1_alg».proof.Proof.Gen.ReferenceIdeal.Read

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The source of each edge. -/
theorem W1_src : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl

/-- The target of each edge. -/
theorem W1_dst : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

/-- The per-edge coefficient. -/
theorem W1_coef : W1 m ρ c (Proc.devRef .tc main_v25) = Cert.ReferenceIdeal.Read.val_main_v26 (F := Ideal) (m ((c : Thread nD τ).loc main_arg1)) := by
  show StableHlo.after hostOps0 (W0 m ρ c) (Proc.devRef .tc main_v25) = _
  after_results_simp <;> rfl

/-- The per-node factor. -/
theorem W1_fac : W1 m ρ c (Proc.devRef .tc main_v26) = Cert.ReferenceIdeal.Read.val_main_v40 (F := Ideal) (m ((c : Thread nD τ).loc main_arg1)) := by
  show StableHlo.after hostOps0 (W0 m ρ c) (Proc.devRef .tc main_v26) = _
  after_results_simp <;> rfl

end Cert.KernelIdeal.Fold

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«139690_j59768764891876_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«139690_j59768764891876_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«139690_j59768764891876_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.Mat0.lean ====
/-
  The first feature transform, launch 0 of four: a tall array times a small weight matrix, ten blocks of 10000 rows.

  Grid point `t` is handed rows `10000 t … 10000 t + 9999` of the left operand and the whole weight matrix, multiplies
  them into a zero accumulator (the narrowing of the operands to a shorter float format is the identity on the extended
  reals) and writes the product back as the same rows of the output.  Row `p` of a product depends on row `p` of the left
  operand only, so those rows are rows `10000 t + p` of the product of the whole arrays; the ten blocks tile the output.
  Hence the output array, after the launch, is the product of the two arrays the launch found.  Stated for any contents
  `V` of the buffers at the launch's entry.
-/
import proofs.«139690_j59768764891876_1_alg».proof.Proof.Gen.KernelIdeal.Frame
import proofs.«139690_j59768764891876_1_alg».proof.Proof.LibRegionRows
import Idealize.ShloMosaic.Lib.Pipeline.Value
import Idealize.ShloMosaic.Lib.ValueIdx

set_option maxRecDepth 16384

noncomputable section

namespace Cert.KernelIdeal.Mat0

open Cert.KernelIdeal Cert.KernelIdeal.Gen Cert.KernelIdeal.RegionValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: point `t` takes block `t` of the left operand's rows and of the output's rows,
    and the one block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows of the output is some point's. -/
theorem idx_onto : ∀ q : Fin 10, ∃ t : Fin cfg0.N, win0_2.index t = ![q.val, 0] :=
  (by decide +kernel : ∀ q : Fin 10, ∃ t : Fin grid0.N, win0_2.index t = ![q.val, 0])

/-- The left operand and the weights as the launch finds them. -/
abbrev lhs (c : Dev nD) : S100000x128.Idx → EReal := V c (Pipeline.arrRef spec0 0)
abbrev rhs (c : Dev nD) : S128x32.Idx → EReal := V c (Pipeline.arrRef spec0 1)

/-- What point `t` writes back is block `t` of the product of the whole arrays. -/
theorem flushed_eq (c : Dev nD) (t : Fin cfg0.N) :
    (dat0 V c).flushed 2 t = ((cfg0.win 2).blk t).view.read (Elt Ideal) (prodArr (lhs V c) (rhs V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  obtain ⟨e0, e1, e2, e3, e4, e5⟩ := idx_facts t
  funext j
  show (k0_pay1 (F := Ideal) (iblk0 V c 0 t) (iblk0 V c 1 t) j : EReal)
    = prodArr (lhs V c) (rhs V c) (((cfg0.win 2).blk t).view.emb j)
  refine block_prod none (truncf .bf16 (iblk0 V c 0 t) bitsLt_bf16_f32)
    (truncf .bf16 (iblk0 V c 1 t) bitsLt_bf16_f32) (lhs V c) (rhs V c) (10000 * t.val) j _ ?_ ?_ ?_ ?_
  · show win0_2.index t (0 : Fin 2) * 10000 + 1 * (j 0).val = 10000 * t.val + (j 0).val
    omega
  · show win0_2.index t (1 : Fin 2) * 32 + 1 * (j 1).val = (j 1).val
    omega
  · intro u z h0 h1
    show ((iblk0 V c 0 t) u : EReal) = V c (Pipeline.arrRef spec0 0) z
    show V c (Pipeline.arrRef spec0 0) (((cfg0.win 0).blk t).view.emb u) = V c (Pipeline.arrRef spec0 0) z
    refine congrArg _ (funext fun a => Fin.ext ?_)
    match a with
    | ⟨0, _⟩ => show win0_0.index t (0 : Fin 2) * 10000 + 1 * (u 0).val = (z 0).val; omega
    | ⟨1, _⟩ => show win0_0.index t (1 : Fin 2) * 128 + 1 * (u 1).val = (z 1).val; omega
  · intro u
    show V c (Pipeline.arrRef spec0 1) (((cfg0.win 1).blk t).view.emb u) = V c (Pipeline.arrRef spec0 1) u
    refine congrArg _ (funext fun a => Fin.ext ?_)
    match a with
    | ⟨0, _⟩ => show win0_1.index t (0 : Fin 2) * 128 + 1 * (u 0).val = (u 0).val; omega
    | ⟨1, _⟩ => show win0_1.index t (1 : Fin 2) * 32 + 1 * (u 1).val = (u 1).val; omega

/-- An index of the output is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v27).slice (win0_2.rect t)).set ↔ _
  rw [View.set_slice_whole, Rect.mem_set_unit]
  exact Iff.rfl

/-- The ten blocks cover the output: row `r` is in the block of point `r / 10000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 32 ≤ (i 1).val ∧ (i 1).val < win0_2.index t (1 : Fin 2) * 32 + 32
    omega

/-- The output array after the launch: the product of the arrays the launch found. -/
theorem final (c : Dev nD) : (dat0 V c).arrAt 2 cfg0.N = prodArr (lhs V c) (rhs V c) :=
  (dat0 V c).arrAt_eq_of_cover 2 _ (fun t _ => flushed_eq V c t) cover

end Cert.KernelIdeal.Mat0

end
-- ==== Proof.Mat2.lean ====
/-
  The second feature transform, launch 2 of four: a tall array times a small weight matrix, ten blocks of 10000 rows.

  Grid point `t` is handed rows `10000 t … 10000 t + 9999` of the left operand and the whole weight matrix, multiplies
  them into a zero accumulator (the narrowing of the operands to a shorter float format is the identity on the extended
  reals) and writes the product back as the same rows of the output.  Row `p` of a product depends on row `p` of the left
  operand only, so those rows are rows `10000 t + p` of the product of the whole arrays; the ten blocks tile the output.
  Hence the output array, after the launch, is the product of the two arrays the launch found.  Stated for any contents
  `V` of the buffers at the launch's entry.
-/
import proofs.«139690_j59768764891876_1_alg».proof.Proof.Gen.KernelIdeal.Frame
import proofs.«139690_j59768764891876_1_alg».proof.Proof.LibRegionRows
import Idealize.ShloMosaic.Lib.Pipeline.Value
import Idealize.ShloMosaic.Lib.ValueIdx

set_option maxRecDepth 16384

noncomputable section

namespace Cert.KernelIdeal.Mat2

open Cert.KernelIdeal Cert.KernelIdeal.Gen Cert.KernelIdeal.RegionValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: point `t` takes block `t` of the left operand's rows and of the output's rows,
    and the one block of the weights. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows of the output is some point's. -/
theorem idx_onto : ∀ q : Fin 10, ∃ t : Fin cfg2.N, win2_2.index t = ![q.val, 0] :=
  (by decide +kernel : ∀ q : Fin 10, ∃ t : Fin grid2.N, win2_2.index t = ![q.val, 0])

/-- The left operand and the weights as the launch finds them. -/
abbrev lhs (c : Dev nD) : S100000x32.Idx → EReal := V c (Pipeline.arrRef spec2 0)
abbrev rhs (c : Dev nD) : S32x32.Idx → EReal := V c (Pipeline.arrRef spec2 1)

/-- What point `t` writes back is block `t` of the product of the whole arrays. -/
theorem flushed_eq (c : Dev nD) (t : Fin cfg2.N) :
    (dat2 V c).flushed 2 t = ((cfg2.win 2).blk t).view.read (Elt Ideal) (prodArr (lhs V c) (rhs V c)) := by
  show (cfg2.win 2).cut (grid2.coords t) ((dat2 V c).after 2 t) = _
  rw [after2_2]
  unfold out2_2
  rw [View.canon_unit_zero hz]
  simp only [View.ld_unit_zero (S := S10000x32) hz, View.ld_unit_zero (S := S32x32) hz]
  obtain ⟨e0, e1, e2, e3, e4, e5⟩ := idx_facts t
  funext j
  show (k2_pay1 (F := Ideal) (iblk2 V c 0 t) (iblk2 V c 1 t) j : EReal)
    = prodArr (lhs V c) (rhs V c) (((cfg2.win 2).blk t).view.emb j)
  refine block_prod none (truncf .bf16 (shapeCast S10000x32 (iblk2 V c 0 t) shapeCasts_S10000x32_S10000x32) bitsLt_bf16_f32)
    (truncf .bf16 (iblk2 V c 1 t) bitsLt_bf16_f32) (lhs V c) (rhs V c) (10000 * t.val) j _ ?_ ?_ ?_ ?_
  · show win2_2.index t (0 : Fin 2) * 10000 + 1 * (j 0).val = 10000 * t.val + (j 0).val
    omega
  · show win2_2.index t (1 : Fin 2) * 32 + 1 * (j 1).val = (j 1).val
    omega
  · intro u z h0 h1
    show ((shapeCast S10000x32 (iblk2 V c 0 t) shapeCasts_S10000x32_S10000x32) u : EReal) = V c (Pipeline.arrRef spec2 0) z
    refine (congrFun (shapeCast_self (s := S10000x32) (iblk2 V c 0 t) shapeCasts_S10000x32_S10000x32) u).trans ?_
    show V c (Pipeline.arrRef spec2 0) (((cfg2.win 0).blk t).view.emb u) = V c (Pipeline.arrRef spec2 0) z
    refine congrArg _ (funext fun a => Fin.ext ?_)
    match a with
    | ⟨0, _⟩ => show win2_0.index t (0 : Fin 2) * 10000 + 1 * (u 0).val = (z 0).val; omega
    | ⟨1, _⟩ => show win2_0.index t (1 : Fin 2) * 32 + 1 * (u 1).val = (z 1).val; omega
  · intro u
    show V c (Pipeline.arrRef spec2 1) (((cfg2.win 1).blk t).view.emb u) = V c (Pipeline.arrRef spec2 1) u
    refine congrArg _ (funext fun a => Fin.ext ?_)
    match a with
    | ⟨0, _⟩ => show win2_1.index t (0 : Fin 2) * 32 + 1 * (u 0).val = (u 0).val; omega
    | ⟨1, _⟩ => show win2_1.index t (1 : Fin 2) * 32 + 1 * (u 1).val = (u 1).val; omega

/-- An index of the output is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v44).slice (win2_2.rect t)).set ↔ _
  rw [View.set_slice_whole, Rect.mem_set_unit]
  exact Iff.rfl

/-- The ten blocks cover the output: row `r` is in the block of point `r / 10000`. -/
theorem cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 32 ≤ (i 1).val ∧ (i 1).val < win2_2.index t (1 : Fin 2) * 32 + 32
    omega

/-- The output array after the launch: the product of the arrays the launch found. -/
theorem final (c : Dev nD) : (dat2 V c).arrAt 2 cfg2.N = prodArr (lhs V c) (rhs V c) :=
  (dat2 V c).arrAt_eq_of_cover 2 _ (fun t _ => flushed_eq V c t) cover

end Cert.KernelIdeal.Mat2

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibGcnEpilogue.lean ====
/-
  THE EPILOGUE OF A GRAPH-CONVOLUTION LAYER, at the ideal values.

  After the neighbours' messages have been summed into `agg`, a graph-convolution layer adds each node's own transformed
  features `h` weighted by a per-node factor `d`, adds a bias `b` per output column, and rectifies:
      out (p, j) = max ((agg (p, j) + h (p, j) · d p) + b j, 0).
  The factor is one number per ROW and the bias one number per COLUMN.  Two spellings of this entry are read here, generic
  in the number `R` of rows and `N` of columns:
  • on the vector unit the factor arrives as a column `[R, 1]` and the bias as a row `[1, N]`; each is cast to itself and
    broadcast over the block (`kepi`);
  • on the host the factor and the bias are vectors, each broadcast first to a column or a row and then over the array,
    and the rectifier compares with the zero constant broadcast from a scalar (`hepi`).
  A column `[R, 1]` obtained from a vector by a cast, and a row `[1, N]` likewise, hold the vector's entries
  (`colOf_cast`, `rowOf_cast`).  Entry `(p, j)` depends on row `p` of `agg`, `h`, `d` and on nothing else of them, so the
  epilogue of a block of rows is that block of rows of the epilogue of the whole (`epiArr_rows`).  The additions are kept in
  the order written; no algebra of the extended reals is used.
-/
import Idealize.ShloMosaic.Lib.ValueIdx
import Idealize.ShloMosaic.Lib.ValueLayout
import Idealize.ShloMosaic.Lib.Pipeline.Value
import Idealize.ShloMosaic.PureOps.Ideal.Laws
import proofs.«139690_j59768764891876_1_alg».proof.Proof.LibColumn

noncomputable section

namespace Cert.GcnEpilogue

open Idealize.ShloMosaic Idealize.ShloMosaic.ValueIdx Idealize.ShloMosaic.ColumnLayout

/-- The level the rectifier compares with: the value of the all-zero word (never evaluated). -/
def zf : EReal := Ideal.ofBits .f32 0x00000000#32

/-- The epilogue as a whole array: factor `d` per row, bias `b` per column. -/
def epiArr {R N : ℕ} (agg h : (⟨2, ![R, N]⟩ : Shape).Idx → EReal) (d : (⟨1, ![R]⟩ : Shape).Idx → EReal)
    (b : (⟨1, ![N]⟩ : Shape).Idx → EReal) : (⟨2, ![R, N]⟩ : Shape).Idx → EReal :=
  fun i => max ((agg i + h i * d (ix1 (i 0))) + b (ix1 (i 1))) zf

theorem epiArr_apply {R N : ℕ} (agg h : (⟨2, ![R, N]⟩ : Shape).Idx → EReal) (d : (⟨1, ![R]⟩ : Shape).Idx → EReal)
    (b : (⟨1, ![N]⟩ : Shape).Idx → EReal) (p : Fin R) (c : Fin N) :
    epiArr agg h d b (ix2 p c) = max ((agg (ix2 p c) + h (ix2 p c) * d (ix1 p)) + b (ix1 c)) zf := rfl

/-- The entries of a column `[R, 1]`, as a vector. -/
def colOf {R : ℕ} (v : (⟨2, ![R, 1]⟩ : Shape).Idx → EReal) : (⟨1, ![R]⟩ : Shape).Idx → EReal :=
  fun i => v (ix2 (i 0) (0 : Fin 1))

/-- The entries of a row `[1, N]`, as a vector. -/
def rowOf {N : ℕ} (v : (⟨2, ![1, N]⟩ : Shape).Idx → EReal) : (⟨1, ![N]⟩ : Shape).Idx → EReal :=
  fun i => v (ix2 (0 : Fin 1) (i 0))

/-- A vector cast to a column and read back is itself. -/
theorem colOf_cast {R : ℕ} (x : (⟨1, ![R]⟩ : Shape).Idx → EReal) (h : (⟨1, ![R]⟩ : Shape).ShapeCasts ⟨2, ![R, 1]⟩) :
    colOf (shapeCast ⟨2, ![R, 1]⟩ x h) = x := by
  funext i
  rw [eq_ix1 i]
  exact shapeCast_a_a1_apply x h (i 0) 0

/-- A vector cast to a row and read back is itself. -/
theorem rowOf_cast {N : ℕ} (x : (⟨1, ![N]⟩ : Shape).Idx → EReal) (h : (⟨1, ![N]⟩ : Shape).ShapeCasts ⟨2, ![1, N]⟩) :
    rowOf (shapeCast ⟨2, ![1, N]⟩ x h) = x := by
  funext i
  rw [eq_ix1 i]
  exact shapeCast_a_1a_apply x h 0 (i 0)

/-! ## The vector unit's spelling -/

/-- On a block: `agg` and `h` cast to themselves, the factor column cast to itself and broadcast over the columns, the
    bias row cast to itself and broadcast over the rows, the rectifier against the zero word splat over the block. -/
theorem kepi {R N : ℕ} (v0 v2 : FVec Ideal ⟨2, ![R, N]⟩ .f32) (v4 : FVec Ideal ⟨2, ![R, 1]⟩ .f32)
    (v9 : FVec Ideal ⟨2, ![1, N]⟩ .f32)
    (h0 : (⟨2, ![R, N]⟩ : Shape).ShapeCasts ⟨2, ![R, N]⟩) (h4 : (⟨2, ![R, 1]⟩ : Shape).ShapeCasts ⟨2, ![R, 1]⟩)
    (hb4 : (⟨2, ![R, 1]⟩ : Shape).Broadcasts ⟨2, ![R, N]⟩)
    (h9 : (⟨2, ![1, N]⟩ : Shape).ShapeCasts ⟨2, ![1, N]⟩) (hb9 : (⟨2, ![1, N]⟩ : Shape).Broadcasts ⟨2, ![R, N]⟩) :
    maximumf (addf (addf (shapeCast ⟨2, ![R, N]⟩ v0 h0)
          (mulf (shapeCast ⟨2, ![R, N]⟩ v2 h0) (broadcastTo ⟨2, ![R, N]⟩ (shapeCast ⟨2, ![R, 1]⟩ v4 h4) hb4)))
        (broadcastTo ⟨2, ![R, N]⟩ (shapeCast ⟨2, ![1, N]⟩ v9 h9) hb9))
      (broadcast ⟨2, ![R, N]⟩ (Scalar.ofBits (F := Ideal) .f32 0x00000000#32))
      = epiArr v0 v2 (colOf v4) (rowOf v9) := by
  funext i
  obtain ⟨p, c, rfl⟩ : ∃ (p : Fin R) (c : Fin N), i = ix2 p c := ⟨i 0, i 1, eq_ix2 i⟩
  show max ((shapeCast ⟨2, ![R, N]⟩ v0 h0 (ix2 p c)
        + shapeCast ⟨2, ![R, N]⟩ v2 h0 (ix2 p c) * broadcastTo ⟨2, ![R, N]⟩ (shapeCast ⟨2, ![R, 1]⟩ v4 h4) hb4 (ix2 p c))
      + broadcastTo ⟨2, ![R, N]⟩ (shapeCast ⟨2, ![1, N]⟩ v9 h9) hb9 (ix2 p c)) zf = _
  rw [shapeCast_self, shapeCast_self, shapeCast_self, shapeCast_self, broadcastTo_a1_ab_apply, broadcastTo_1b_ab_apply]
  rfl

/-! ## The host's spelling -/

/-- A vector broadcast to a column `[R, 1]` (its one axis sent to axis 0), read at `(p, u)`. -/
theorem bcast_col_apply {α : Type} {R : ℕ} (x : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h x (ix2 p u) = x (ix1 p) := by
  refine broadcastInDim_apply ![0] h x (ix2 p u) (ix1 p) fun a => ?_
  match a with
  | ⟨0, _⟩ =>
    show p.val = if R = 1 then 0 else p.val
    split
    · have := p.isLt; omega
    · rfl

/-- A column `[R, 1]` broadcast over `N` columns, read at `(p, c)`. -/
theorem bcast_col_over_apply {α : Type} {R N : ℕ} (v : (⟨2, ![R, 1]⟩ : Shape).Idx → α)
    (h : (⟨2, ![R, 1]⟩ : Shape).BroadcastsInDim ⟨2, ![R, N]⟩ ![0, 1]) (p : Fin R) (c : Fin N) :
    broadcastInDim ⟨2, ![R, N]⟩ ![0, 1] h v (ix2 p c) = v (ix2 p (0 : Fin 1)) := by
  refine broadcastInDim_apply ![0, 1] h v (ix2 p c) (ix2 p (0 : Fin 1)) fun a => ?_
  match a with
  | ⟨0, _⟩ =>
    show p.val = if R = 1 then 0 else p.val
    split
    · have := p.isLt; omega
    · rfl
  | ⟨1, _⟩ => rfl

/-- A vector broadcast to a row `[1, N]` (its one axis sent to axis 1), read at `(u, c)`. -/
theorem bcast_row_apply {α : Type} {N : ℕ} (x : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h x (ix2 u c) = x (ix1 c) := by
  refine broadcastInDim_apply ![1] h x (ix2 u c) (ix1 c) fun a => ?_
  match a with
  | ⟨0, _⟩ =>
    show c.val = if N = 1 then 0 else c.val
    split
    · have := c.isLt; omega
    · rfl

/-- A row `[1, N]` broadcast over `R` rows, read at `(p, c)`. -/
theorem bcast_row_over_apply {α : Type} {R N : ℕ} (v : (⟨2, ![1, N]⟩ : Shape).Idx → α)
    (h : (⟨2, ![1, N]⟩ : Shape).BroadcastsInDim ⟨2, ![R, N]⟩ ![0, 1]) (p : Fin R) (c : Fin N) :
    broadcastInDim ⟨2, ![R, N]⟩ ![0, 1] h v (ix2 p c) = v (ix2 (0 : Fin 1) c) := by
  refine broadcastInDim_apply ![0, 1] h v (ix2 p c) (ix2 (0 : Fin 1) c) fun a => ?_
  match a with
  | ⟨0, _⟩ => rfl
  | ⟨1, _⟩ =>
    show c.val = if N = 1 then 0 else c.val
    split
    · have := c.isLt; omega
    · rfl

/-- On the host: the factor vector broadcast to a column and over the columns, the bias vector broadcast to a row and
    over the rows, the rectifier against the zero constant broadcast from a scalar. -/
theorem hepi {R N : ℕ} (agg h : FVec Ideal ⟨2, ![R, N]⟩ .f32) (d : FVec Ideal ⟨1, ![R]⟩ .f32) (b : FVec Ideal ⟨1, ![N]⟩ .f32)
    (hd1 : (⟨1, ![R]⟩ : Shape).BroadcastsInDim ⟨2, ![R, 1]⟩ ![0])
    (hd2 : (⟨2, ![R, 1]⟩ : Shape).BroadcastsInDim ⟨2, ![R, N]⟩ ![0, 1])
    (hb1 : (⟨1, ![N]⟩ : Shape).BroadcastsInDim ⟨2, ![1, N]⟩ ![1])
    (hb2 : (⟨2, ![1, N]⟩ : Shape).BroadcastsInDim ⟨2, ![R, N]⟩ ![0, 1])
    (hz : (⟨0, ![]⟩ : Shape).BroadcastsInDim ⟨2, ![R, N]⟩ ![]) :
    maximumf (addf (addf agg (mulf h (broadcastInDim ⟨2, ![R, N]⟩ ![0, 1] hd2 (broadcastInDim ⟨2, ![R, 1]⟩ ![0] hd1 d))))
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
      = epiArr agg h d b := by
  funext i
  obtain ⟨p, c, rfl⟩ : ∃ (p : Fin R) (c : Fin N), i = ix2 p c := ⟨i 0, i 1, eq_ix2 i⟩
  show max ((agg (ix2 p c)
        + h (ix2 p c) * broadcastInDim ⟨2, ![R, N]⟩ ![0, 1] hd2 (broadcastInDim ⟨2, ![R, 1]⟩ ![0] hd1 d) (ix2 p c))
      + broadcastInDim ⟨2, ![R, N]⟩ ![0, 1] hb2 (broadcastInDim ⟨2, ![1, N]⟩ ![1] hb1 b) (ix2 p c))
      (broadcastInDim ⟨2, ![R, N]⟩ ![] hz (constant (F := Ideal) ⟨0, ![]⟩ .f32 0x00000000#32) (ix2 p c)) = _
  rw [bcast_col_over_apply, bcast_col_apply, bcast_row_over_apply, bcast_row_apply,
    broadcastInDim_apply _ hz _ (ix2 p c) ix0 (fun a => a.elim0)]
  rfl

/-! ## Row locality -/

/-- Row `p` of the epilogue of a block is row `p'` of the epilogue of the whole arrays when row `p` of the block's
    `agg`, `h` and factor are row `p'` of the whole arrays' and the biases are one vector. -/
theorem epiArr_rows {R R' N : ℕ} (agg h : (⟨2, ![R, N]⟩ : Shape).Idx → EReal) (d : (⟨1, ![R]⟩ : Shape).Idx → EReal)
    (AGG H : (⟨2, ![R', N]⟩ : Shape).Idx → EReal) (D : (⟨1, ![R']⟩ : Shape).Idx → EReal)
    (b : (⟨1, ![N]⟩ : Shape).Idx → EReal) (p : Fin R) (p' : Fin R') (c : Fin N)
    (ha : agg (ix2 p c) = AGG (ix2 p' c)) (hh : h (ix2 p c) = H (ix2 p' c)) (hd : d (ix1 p) = D (ix1 p')) :
    epiArr agg h d b (ix2 p c) = epiArr AGG H D b (ix2 p' c) := by
  rw [epiArr_apply, epiArr_apply, ha, hh, hd]

/-- The same at indices given by the values of their coordinates: the block's index `y` and the whole array's index `i`
    name the same column, `i`'s row is `y`'s row moved down by `off`; the block's `agg`, `h` and factor are the whole
    arrays' read `off` rows down; the biases agree entry by entry. -/
theorem epi_block {R R' N : ℕ} (agg h : (⟨2, ![R, N]⟩ : Shape).Idx → EReal) (d : (⟨1, ![R]⟩ : Shape).Idx → EReal)
    (b : (⟨1, ![N]⟩ : Shape).Idx → EReal)
    (AGG H : (⟨2, ![R', N]⟩ : Shape).Idx → EReal) (D : (⟨1, ![R']⟩ : Shape).Idx → EReal)
    (B : (⟨1, ![N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, N]⟩ : Shape).Idx) (z : (⟨2, ![R', N]⟩ : Shape).Idx),
      (z 0).val = off + (u 0).val → (z 1).val = (u 1).val → agg u = AGG z)
    (hh : ∀ (u : (⟨2, ![R, N]⟩ : Shape).Idx) (z : (⟨2, ![R', N]⟩ : Shape).Idx),
      (z 0).val = off + (u 0).val → (z 1).val = (u 1).val → h u = H z)
    (hd : ∀ (u : Fin R) (z : Fin R'), z.val = off + u.val → d (ix1 u) = D (ix1 z))
    (hb : ∀ u : Fin N, b (ix1 u) = B (ix1 u)) :
    epiArr agg h d b y = epiArr AGG H D B i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [epiArr_apply, epiArr_apply, ha (ix2 p c') (ix2 p' c') hi0 rfl, hh (ix2 p c') (ix2 p' c') hi0 rfl, hd p p' hi0, hb c']

end Cert.GcnEpilogue

end
-- ==== Proof.Epi1.lean ====
/-
  The epilogue of the first graph-convolution layer, launch 1 of four: ten blocks of 10000 rows.

  Grid point `t` is handed rows `10000 t … 10000 t + 9999` of the summed messages, of the transformed features and of
  the column of per-node factors, and the one row of biases; it writes back, as the same rows of the output,
      max ((agg + h · factor) + bias, 0)
  entry by entry.  Entry `(p, j)` reads row `p` of its operands only, so the block is rows `10000 t + p` of the epilogue
  of the whole arrays; the ten blocks tile the output.  Hence the output array, after the launch, is the epilogue of the
  four arrays the launch found.  Stated for any contents `V` of the buffers at the launch's entry.
-/
import proofs.«139690_j59768764891876_1_alg».proof.Proof.Gen.KernelIdeal.Frame
import proofs.«139690_j59768764891876_1_alg».proof.Proof.LibGcnEpilogue
import Idealize.ShloMosaic.Lib.Pipeline.Value
import Idealize.ShloMosaic.Lib.ValueIdx

set_option maxRecDepth 16384

noncomputable section

namespace Cert.KernelIdeal.Epi1

open Cert.KernelIdeal Cert.KernelIdeal.Gen Cert.GcnEpilogue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: point `t` takes block `t` of the rows of the messages, the features, the
    factor column and the output, and the one block of the bias row. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block of rows of the output is some point's. -/
theorem idx_onto : ∀ q : Fin 10, ∃ t : Fin cfg1.N, win1_4.index t = ![q.val, 0] :=
  (by decide +kernel : ∀ q : Fin 10, ∃ t : Fin grid1.N, win1_4.index t = ![q.val, 0])

/-- The four operands as the launch finds them. -/
abbrev agg (c : Dev nD) : S100000x32.Idx → EReal := V c (Pipeline.arrRef spec1 0)
abbrev feat (c : Dev nD) : S100000x32.Idx → EReal := V c (Pipeline.arrRef spec1 1)
abbrev fac (c : Dev nD) : S100000x1.Idx → EReal := V c (Pipeline.arrRef spec1 2)
abbrev bias (c : Dev nD) : S1x32.Idx → EReal := V c (Pipeline.arrRef spec1 3)

/-- What point `t` writes back is block `t` of the epilogue of the whole arrays. -/
theorem flushed_eq (c : Dev nD) (t : Fin cfg1.N) :
    (dat1 V c).flushed 4 t = ((cfg1.win 4).blk t).view.read (Elt Ideal)
      (epiArr (agg V c) (feat V c) (colOf (fac V c)) (rowOf (bias V c))) := by
  show (cfg1.win 4).cut (grid1.coords t) ((dat1 V c).after 4 t) = _
  rw [after1_4]
  unfold out1_4
  rw [View.canon_unit_zero hz]
  simp only [View.ld_unit_zero (S := S10000x32) hz, View.ld_unit_zero (S := S10000x1) hz, View.ld_unit_zero (S := S1x32) hz]
  obtain ⟨e0, e1, e2, e3, e4, e5, e6, e7, e8, e9⟩ := idx_facts t
  funext j
  show (k1_pay1 (F := Ideal) (iblk1 V c 0 t) (iblk1 V c 1 t) (iblk1 V c 2 t) (iblk1 V c 3 t) j : EReal)
    = epiArr (agg V c) (feat V c) (colOf (fac V c)) (rowOf (bias V c)) (((cfg1.win 4).blk t).view.emb j)
  refine (congrFun (kepi (iblk1 V c 0 t) (iblk1 V c 1 t) (iblk1 V c 2 t) (iblk1 V c 3 t)
    shapeCasts_S10000x32_S10000x32 shapeCasts_S10000x1_S10000x1 broadcasts_S10000x1_S10000x32
    shapeCasts_S1x32_S1x32 broadcasts_S1x32_S10000x32) j).trans ?_
  refine epi_block _ _ _ _ _ _ _ _ (10000 * t.val) j _ ?_ ?_ ?_ ?_ ?_ ?_
  · show win1_4.index t (0 : Fin 2) * 10000 + 1 * (j 0).val = 10000 * t.val + (j 0).val
    omega
  · show win1_4.index t (1 : Fin 2) * 32 + 1 * (j 1).val = (j 1).val
    omega
  · intro u z h0 h1
    show V c (Pipeline.arrRef spec1 0) (((cfg1.win 0).blk t).view.emb u) = V c (Pipeline.arrRef spec1 0) z
    refine congrArg _ (funext fun a => Fin.ext ?_)
    match a with
    | ⟨0, _⟩ => show win1_0.index t (0 : Fin 2) * 10000 + 1 * (u 0).val = (z 0).val; omega
    | ⟨1, _⟩ => show win1_0.index t (1 : Fin 2) * 32 + 1 * (u 1).val = (z 1).val; omega
  · intro u z h0 h1
    show V c (Pipeline.arrRef spec1 1) (((cfg1.win 1).blk t).view.emb u) = V c (Pipeline.arrRef spec1 1) z
    refine congrArg _ (funext fun a => Fin.ext ?_)
    match a with
    | ⟨0, _⟩ => show win1_1.index t (0 : Fin 2) * 10000 + 1 * (u 0).val = (z 0).val; omega
    | ⟨1, _⟩ => show win1_1.index t (1 : Fin 2) * 32 + 1 * (u 1).val = (z 1).val; omega
  · intro u z h0
    show V c (Pipeline.arrRef spec1 2) (((cfg1.win 2).blk t).view.emb (ix2 u (0 : Fin 1)))
      = V c (Pipeline.arrRef spec1 2) (ix2 z (0 : Fin 1))
    refine congrArg _ (funext fun a => Fin.ext ?_)
    match a with
    | ⟨0, _⟩ => show win1_2.index t (0 : Fin 2) * 10000 + 1 * u.val = z.val; omega
    | ⟨1, _⟩ => show win1_2.index t (1 : Fin 2) * 1 + 1 * 0 = 0; omega
  · intro u
    show V c (Pipeline.arrRef spec1 3) (((cfg1.win 3).blk t).view.emb (ix2 (0 : Fin 1) u))
      = V c (Pipeline.arrRef spec1 3) (ix2 (0 : Fin 1) u)
    refine congrArg _ (funext fun a => Fin.ext ?_)
    match a with
    | ⟨0, _⟩ => show win1_3.index t (0 : Fin 2) * 1 + 1 * 0 = 0; omega
    | ⟨1, _⟩ => show win1_3.index t (1 : Fin 2) * 32 + 1 * u.val = u.val; omega

/-- An index of the output is in point `t`'s block iff each coordinate is in the block's range on its axis. -/
theorem mem_blk (t : Fin cfg1.N) (i : S100000x32.Idx) :
    i ∈ ((cfg1.win 4).blk t).view.set ↔ ∀ a : Fin 2, win1_4.index t a * S10000x32.size a ≤ (i a).val
      ∧ (i a).val < win1_4.index t a * S10000x32.size a + S10000x32.size a := by
  show i ∈ ((View.whole main_v43).slice (win1_4.rect t)).set ↔ _
  rw [View.set_slice_whole, Rect.mem_set_unit]
  exact Iff.rfl

/-- The ten blocks cover the output: row `r` is in the block of point `r / 10000`. -/
theorem cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 32 ≤ (i 1).val ∧ (i 1).val < win1_4.index t (1 : Fin 2) * 32 + 32
    omega

/-- The output array after the launch: the epilogue of the arrays the launch found. -/
theorem final (c : Dev nD) :
    (dat1 V c).arrAt 4 cfg1.N = epiArr (agg V c) (feat V c) (colOf (fac V c)) (rowOf (bias V c)) :=
  (dat1 V c).arrAt_eq_of_cover 4 _ (fun t _ => flushed_eq V c t) cover

end Cert.KernelIdeal.Epi1

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«139690_j59768764891876_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.RefLayers.lean ====
/-
  The reference's two layers, each as the epilogue of its own stages.

  A layer of the reference is: the product h of the layer's input with the weights; the messages h[src] · coefficient
  summed at each edge's target; then max ((messages + h · factor) + bias, 0), the factor broadcast over the columns and
  the bias over the rows.  That last line is the whole-array epilogue of the four stages before it.  The reference computes
  the per-node factor once per layer, by the same operations of the edge list: the two are one array.
-/
import proofs.«139690_j59768764891876_1_alg».proof.Defs
import proofs.«139690_j59768764891876_1_alg».proof.Proof.Gen.ReferenceIdeal.Read
import proofs.«139690_j59768764891876_1_alg».proof.Proof.LibGcnEpilogue

set_option maxRecDepth 16384

noncomputable section

namespace Cert.ReferenceIdeal.Layers

open Cert.ReferenceIdeal Cert.ReferenceIdeal.Gen Cert.ReferenceIdeal.Read Cert.GcnEpilogue
open Idealize.ShloMosaic

/-- The first layer's output is the epilogue of its messages, its product, the per-node factor and its bias. -/
theorem layer1 (x0 : (⟨S100000x128, .f32⟩ : BufTy).Contents (Elt Ideal)) (x1 : (⟨S2x3200000, .i32⟩ : BufTy).Contents (Elt Ideal))
    (x3 : (⟨S128x32, .f32⟩ : BufTy).Contents (Elt Ideal)) (x4 : (⟨S32, .f32⟩ : BufTy).Contents (Elt Ideal)) :
    val_main_v48 (F := Ideal) x0 x1 x3 x4
      = epiArr (R := 100000) (N := 32) (val_main_v39 (F := Ideal) x0 x1 x3) (val_main_v11 (F := Ideal) x0 x3) (val_main_v40 (F := Ideal) x1) x4 :=
  hepi (R := 100000) (N := 32) (val_main_v39 (F := Ideal) x0 x1 x3) (val_main_v11 (F := Ideal) x0 x3) (val_main_v40 (F := Ideal) x1) x4
    bcast_S100000_S100000x1_0 bcast_S100000x1_S100000x32_0_1 bcast_S32_S1x32_1 bcast_S1x32_S100000x32_0_1 bcast_S_S100000x32

/-- The per-node factor the second layer recomputes is the first layer's. -/
theorem fac_again (x1 : (⟨S2x3200000, .i32⟩ : BufTy).Contents (Elt Ideal)) :
    val_main_v85 (F := Ideal) x1 = val_main_v40 (F := Ideal) x1 := rfl

/-- The second layer's output is the epilogue of its messages, its product, the per-node factor and its bias. -/
theorem layer2 (x0 : (⟨S100000x128, .f32⟩ : BufTy).Contents (Elt Ideal)) (x1 : (⟨S2x3200000, .i32⟩ : BufTy).Contents (Elt Ideal))
    (x3 : (⟨S128x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal)) :
    val_main_v93 (F := Ideal) x0 x1 x3 x4 x5 x6
      = epiArr (R := 100000) (N := 32) (val_main_v84 (F := Ideal) x0 x1 x3 x4 x5) (val_main_v56 (F := Ideal) x0 x1 x3 x4 x5) (val_main_v40 (F := Ideal) x1) x6 :=
  (hepi (R := 100000) (N := 32) (val_main_v84 (F := Ideal) x0 x1 x3 x4 x5) (val_main_v56 (F := Ideal) x0 x1 x3 x4 x5) (val_main_v85 (F := Ideal) x1) x6
    bcast_S100000_S100000x1_0 bcast_S100000x1_S100000x32_0_1 bcast_S32_S1x32_1 bcast_S1x32_S100000x32_0_1 bcast_S_S100000x32).trans
    (by rw [fac_again])

end Cert.ReferenceIdeal.Layers

end
-- ==== Proof.Fold1.lean ====
/-
  The buffer contents of the idealized kernel's @main through the first layer and the second product.

  First launch: the product of the features and the first weights — the reference's product stage.  The stretch after it
  gathers that product at the edges' sources, scales by the per-edge coefficient and sums at the targets: the
  reference's message stage, by the same operations.  It also lays the per-node factor out as a column and the bias as a
  row, by casts that keep the entries.  Second launch: the epilogue of those four arrays, which is the reference's first
  layer.  Third launch: its product with the second weights — the reference's second product stage.
-/
import proofs.«139690_j59768764891876_1_alg».proof.Defs
import proofs.«139690_j59768764891876_1_alg».proof.Proof.Gen.KernelIdeal.Frame
import proofs.«139690_j59768764891876_1_alg».proof.Proof.Gen.ReferenceIdeal.Read
import proofs.«139690_j59768764891876_1_alg».proof.Proof.Keep
import proofs.«139690_j59768764891876_1_alg».proof.Proof.Fold0
import proofs.«139690_j59768764891876_1_alg».proof.Proof.Mat0
import proofs.«139690_j59768764891876_1_alg».proof.Proof.Mat2
import proofs.«139690_j59768764891876_1_alg».proof.Proof.Epi1
import proofs.«139690_j59768764891876_1_alg».proof.Proof.LibProdRows
import proofs.«139690_j59768764891876_1_alg».proof.Proof.LibGcnEpilogue
import proofs.«139690_j59768764891876_1_alg».proof.Proof.RefLayers

set_option maxRecDepth 16384

noncomputable section

namespace Cert.KernelIdeal.Fold

open Cert.KernelIdeal Cert.KernelIdeal.Gen Cert.KernelIdeal.Keep Cert.KernelIdeal.Fold
open Cert.KernelIdeal.RegionValue (prodArr)
open Cert.GcnEpilogue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first launch -/

/-- The first launch leaves the product of the features and the first weights. -/
theorem W2_h1 : W2 m ρ c (Proc.devRef .tc main_v27)
    = Cert.ReferenceIdeal.Read.val_main_v11 (F := Ideal) (m ((c : Thread nD τ).loc main_arg0)) (m ((c : Thread nD τ).loc main_arg3)) := by
  refine (W2_arr m ρ c 2).trans ((Cert.KernelIdeal.Mat0.final (V1 m ρ) c).trans ?_)
  have e0 : Cert.KernelIdeal.Mat0.lhs (V1 m ρ) c = (m ((c : Thread nD τ).loc main_arg0)) := keep_arg0_1_0 m ρ c
  have e1 : Cert.KernelIdeal.Mat0.rhs (V1 m ρ) c = (m ((c : Thread nD τ).loc main_arg3)) := keep_arg3_1_0 m ρ c
  exact (congr (congrArg prodArr e0) e1).trans
    (Cert.ProdRows.hprod (R := 100000) (K := 128) (N := 32) (φ₁ := .f32) (φ₂ := .f32) none _ _).symm

theorem W2_src : W2 m ρ c (Proc.devRef .tc main_v1) = Cert.ReferenceIdeal.Read.val_main_v1 (F := Ideal) (m ((c : Thread nD τ).loc main_arg1)) :=
  (keep_v1_2_1 m ρ c).trans (W1_src m ρ c)
theorem W2_dst : W2 m ρ c (Proc.devRef .tc main_v3) = Cert.ReferenceIdeal.Read.val_main_v3 (F := Ideal) (m ((c : Thread nD τ).loc main_arg1)) :=
  (keep_v3_2_1 m ρ c).trans (W1_dst m ρ c)
theorem W2_coef : W2 m ρ c (Proc.devRef .tc main_v25) = Cert.ReferenceIdeal.Read.val_main_v26 (F := Ideal) (m ((c : Thread nD τ).loc main_arg1)) :=
  (keep_v25_2_1 m ρ c).trans (W1_coef m ρ c)
theorem W2_fac : W2 m ρ c (Proc.devRef .tc main_v26) = Cert.ReferenceIdeal.Read.val_main_v40 (F := Ideal) (m ((c : Thread nD τ).loc main_arg1)) :=
  (keep_v26_2_1 m ρ c).trans (W1_fac m ρ c)

/-! ## At the second launch -/

/-- The first layer's messages, summed at the targets. -/
theorem W3_agg1 : W3 m ρ c (Proc.devRef .tc main_v40)
    = Cert.ReferenceIdeal.Read.val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v40) = _
  after_results_simp
  rw [W2_h1, W2_src, W2_dst, W2_coef]
  rfl

/-- The product is not written by the stretch. -/
theorem W3_h1 : W3 m ρ c (Proc.devRef .tc main_v27)
    = Cert.ReferenceIdeal.Read.val_main_v11 (F := Ideal) (m ((c : Thread nD τ).loc main_arg0)) (m ((c : Thread nD τ).loc main_arg3)) :=
  (keep_v27_3_2 m ρ c).trans (W2_h1 m ρ c)

/-- The per-node factor, laid out as a column by a cast. -/
theorem W3_fac : colOf (R := 100000) (W3 m ρ c (Proc.devRef .tc main_v42)) = Cert.ReferenceIdeal.Read.val_main_v40 (F := Ideal) (m ((c : Thread nD τ).loc main_arg1)) := by
  have h : W3 m ρ c (Proc.devRef .tc main_v42)
      = shapeCast _ (W2 m ρ c (Proc.devRef .tc main_v26)) shapeCasts_S100000_S100000x1 := by
    show StableHlo.after hostOps1 (W2 m ρ c) (Proc.devRef .tc main_v42) = _
    after_results_simp <;> rfl
  rw [h]
  exact (colOf_cast (R := 100000) _ shapeCasts_S100000_S100000x1).trans (W2_fac m ρ c)

/-- The first bias, laid out as a row by a cast. -/
theorem W3_bias : rowOf (N := 32) (W3 m ρ c (Proc.devRef .tc main_v41)) = (m ((c : Thread nD τ).loc main_arg4)) := by
  have h : W3 m ρ c (Proc.devRef .tc main_v41)
      = shapeCast _ (W2 m ρ c (Proc.devRef .tc main_arg4)) shapeCasts_S32_S1x32 := by
    show StableHlo.after hostOps1 (W2 m ρ c) (Proc.devRef .tc main_v41) = _
    after_results_simp <;> rfl
  rw [h]
  exact (rowOf_cast (N := 32) _ shapeCasts_S32_S1x32).trans (keep_arg4_2_0 m ρ c)

/-! ## After the second launch -/

/-- The second launch leaves the reference's first layer. -/
theorem W4_x1 : W4 m ρ c (Proc.devRef .tc main_v43)
    = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((Cert.KernelIdeal.Epi1.final (V3 m ρ) c).trans ?_)
  have e0 : Cert.KernelIdeal.Epi1.agg (V3 m ρ) c = Cert.ReferenceIdeal.Read.val_main_v39 (F := Ideal) (m ((c : Thread nD τ).loc main_arg0)) (m ((c : Thread nD τ).loc main_arg1)) (m ((c : Thread nD τ).loc main_arg3)) := W3_agg1 m ρ c
  have e1 : Cert.KernelIdeal.Epi1.feat (V3 m ρ) c = Cert.ReferenceIdeal.Read.val_main_v11 (F := Ideal) (m ((c : Thread nD τ).loc main_arg0)) (m ((c : Thread nD τ).loc main_arg3)) := W3_h1 m ρ c
  have e2 : colOf (R := 100000) (Cert.KernelIdeal.Epi1.fac (V3 m ρ) c) = Cert.ReferenceIdeal.Read.val_main_v40 (F := Ideal) (m ((c : Thread nD τ).loc main_arg1)) := W3_fac m ρ c
  have e3 : rowOf (N := 32) (Cert.KernelIdeal.Epi1.bias (V3 m ρ) c) = (m ((c : Thread nD τ).loc main_arg4)) := W3_bias m ρ c
  exact (congr (congr (congr (congrArg (epiArr (R := 100000) (N := 32)) e0) e1) e2) e3).trans
    (Cert.ReferenceIdeal.Layers.layer1 _ _ _ _).symm

/-! ## After the third launch -/

/-- The third launch leaves the product of the first layer and the second weights. -/
theorem W5_h2 : W5 m ρ c (Proc.devRef .tc main_v44)
    = Cert.ReferenceIdeal.Read.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Cert.KernelIdeal.Mat2.final (V4 m ρ) c).trans ?_)
  have e0 : Cert.KernelIdeal.Mat2.lhs (V4 m ρ) c = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := W4_x1 m ρ c
  have e1 : Cert.KernelIdeal.Mat2.rhs (V4 m ρ) c = (m ((c : Thread nD τ).loc main_arg5)) := keep_arg5_4_0 m ρ c
  exact (congr (congrArg prodArr e0) e1).trans
    (Cert.ProdRows.hprod (R := 100000) (K := 32) (N := 32) (φ₁ := .f32) (φ₂ := .f32) none _ _).symm

theorem W5_src : W5 m ρ c (Proc.devRef .tc main_v1) = Cert.ReferenceIdeal.Read.val_main_v1 (F := Ideal) (m ((c : Thread nD τ).loc main_arg1)) :=
  (keep_v1_5_1 m ρ c).trans (W1_src m ρ c)
theorem W5_dst : W5 m ρ c (Proc.devRef .tc main_v3) = Cert.ReferenceIdeal.Read.val_main_v3 (F := Ideal) (m ((c : Thread nD τ).loc main_arg1)) :=
  (keep_v3_5_1 m ρ c).trans (W1_dst m ρ c)
theorem W5_coef : W5 m ρ c (Proc.devRef .tc main_v25) = Cert.ReferenceIdeal.Read.val_main_v26 (F := Ideal) (m ((c : Thread nD τ).loc main_arg1)) :=
  (keep_v25_5_1 m ρ c).trans (W1_coef m ρ c)
theorem W5_fac : W5 m ρ c (Proc.devRef .tc main_v26) = Cert.ReferenceIdeal.Read.val_main_v40 (F := Ideal) (m ((c : Thread nD τ).loc main_arg1)) :=
  (keep_v26_5_1 m ρ c).trans (W1_fac m ρ c)

end Cert.KernelIdeal.Fold

end
-- ==== Proof.Epi3.lean ====
/-
  The epilogue of the second graph-convolution layer, launch 3 of four: ten blocks of 10000 rows.

  Grid point `t` is handed rows `10000 t … 10000 t + 9999` of the summed messages, of the transformed features and of
  the column of per-node factors, and the one row of biases; it writes back, as the same rows of the output,
      max ((agg + h · factor) + bias, 0)
  entry by entry.  Entry `(p, j)` reads row `p` of its operands only, so the block is rows `10000 t + p` of the epilogue
  of the whole arrays; the ten blocks tile the output.  Hence the output array, after the launch, is the epilogue of the
  four arrays the launch found.  Stated for any contents `V` of the buffers at the launch's entry.
-/
import proofs.«139690_j59768764891876_1_alg».proof.Proof.Gen.KernelIdeal.Frame
import proofs.«139690_j59768764891876_1_alg».proof.Proof.LibGcnEpilogue
import Idealize.ShloMosaic.Lib.Pipeline.Value
import Idealize.ShloMosaic.Lib.ValueIdx

set_option maxRecDepth 16384

noncomputable section

namespace Cert.KernelIdeal.Epi3

open Cert.KernelIdeal Cert.KernelIdeal.Gen Cert.GcnEpilogue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: point `t` takes block `t` of the rows of the messages, the features, the
    factor column and the output, and the one block of the bias row. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every block of rows of the output is some point's. -/
theorem idx_onto : ∀ q : Fin 10, ∃ t : Fin cfg3.N, win3_4.index t = ![q.val, 0] :=
  (by decide +kernel : ∀ q : Fin 10, ∃ t : Fin grid3.N, win3_4.index t = ![q.val, 0])

/-- The four operands as the launch finds them. -/
abbrev agg (c : Dev nD) : S100000x32.Idx → EReal := V c (Pipeline.arrRef spec3 0)
abbrev feat (c : Dev nD) : S100000x32.Idx → EReal := V c (Pipeline.arrRef spec3 1)
abbrev fac (c : Dev nD) : S100000x1.Idx → EReal := V c (Pipeline.arrRef spec3 2)
abbrev bias (c : Dev nD) : S1x32.Idx → EReal := V c (Pipeline.arrRef spec3 3)

/-- What point `t` writes back is block `t` of the epilogue of the whole arrays. -/
theorem flushed_eq (c : Dev nD) (t : Fin cfg3.N) :
    (dat3 V c).flushed 4 t = ((cfg3.win 4).blk t).view.read (Elt Ideal)
      (epiArr (agg V c) (feat V c) (colOf (fac V c)) (rowOf (bias V c))) := by
  show (cfg3.win 4).cut (grid3.coords t) ((dat3 V c).after 4 t) = _
  rw [after3_4]
  unfold out3_4
  rw [View.canon_unit_zero hz]
  simp only [View.ld_unit_zero (S := S10000x32) hz, View.ld_unit_zero (S := S10000x1) hz, View.ld_unit_zero (S := S1x32) hz]
  obtain ⟨e0, e1, e2, e3, e4, e5, e6, e7, e8, e9⟩ := idx_facts t
  funext j
  show (k3_pay1 (F := Ideal) (iblk3 V c 0 t) (iblk3 V c 1 t) (iblk3 V c 2 t) (iblk3 V c 3 t) j : EReal)
    = epiArr (agg V c) (feat V c) (colOf (fac V c)) (rowOf (bias V c)) (((cfg3.win 4).blk t).view.emb j)
  refine (congrFun (kepi (iblk3 V c 0 t) (iblk3 V c 1 t) (iblk3 V c 2 t) (iblk3 V c 3 t)
    shapeCasts_S10000x32_S10000x32 shapeCasts_S10000x1_S10000x1 broadcasts_S10000x1_S10000x32
    shapeCasts_S1x32_S1x32 broadcasts_S1x32_S10000x32) j).trans ?_
  refine epi_block _ _ _ _ _ _ _ _ (10000 * t.val) j _ ?_ ?_ ?_ ?_ ?_ ?_
  · show win3_4.index t (0 : Fin 2) * 10000 + 1 * (j 0).val = 10000 * t.val + (j 0).val
    omega
  · show win3_4.index t (1 : Fin 2) * 32 + 1 * (j 1).val = (j 1).val
    omega
  · intro u z h0 h1
    show V c (Pipeline.arrRef spec3 0) (((cfg3.win 0).blk t).view.emb u) = V c (Pipeline.arrRef spec3 0) z
    refine congrArg _ (funext fun a => Fin.ext ?_)
    match a with
    | ⟨0, _⟩ => show win3_0.index t (0 : Fin 2) * 10000 + 1 * (u 0).val = (z 0).val; omega
    | ⟨1, _⟩ => show win3_0.index t (1 : Fin 2) * 32 + 1 * (u 1).val = (z 1).val; omega
  · intro u z h0 h1
    show V c (Pipeline.arrRef spec3 1) (((cfg3.win 1).blk t).view.emb u) = V c (Pipeline.arrRef spec3 1) z
    refine congrArg _ (funext fun a => Fin.ext ?_)
    match a with
    | ⟨0, _⟩ => show win3_1.index t (0 : Fin 2) * 10000 + 1 * (u 0).val = (z 0).val; omega
    | ⟨1, _⟩ => show win3_1.index t (1 : Fin 2) * 32 + 1 * (u 1).val = (z 1).val; omega
  · intro u z h0
    show V c (Pipeline.arrRef spec3 2) (((cfg3.win 2).blk t).view.emb (ix2 u (0 : Fin 1)))
      = V c (Pipeline.arrRef spec3 2) (ix2 z (0 : Fin 1))
    refine congrArg _ (funext fun a => Fin.ext ?_)
    match a with
    | ⟨0, _⟩ => show win3_2.index t (0 : Fin 2) * 10000 + 1 * u.val = z.val; omega
    | ⟨1, _⟩ => show win3_2.index t (1 : Fin 2) * 1 + 1 * 0 = 0; omega
  · intro u
    show V c (Pipeline.arrRef spec3 3) (((cfg3.win 3).blk t).view.emb (ix2 (0 : Fin 1) u))
      = V c (Pipeline.arrRef spec3 3) (ix2 (0 : Fin 1) u)
    refine congrArg _ (funext fun a => Fin.ext ?_)
    match a with
    | ⟨0, _⟩ => show win3_3.index t (0 : Fin 2) * 1 + 1 * 0 = 0; omega
    | ⟨1, _⟩ => show win3_3.index t (1 : Fin 2) * 32 + 1 * u.val = u.val; omega

/-- An index of the output is in point `t`'s block iff each coordinate is in the block's range on its axis. -/
theorem mem_blk (t : Fin cfg3.N) (i : S100000x32.Idx) :
    i ∈ ((cfg3.win 4).blk t).view.set ↔ ∀ a : Fin 2, win3_4.index t a * S10000x32.size a ≤ (i a).val
      ∧ (i a).val < win3_4.index t a * S10000x32.size a + S10000x32.size a := by
  show i ∈ ((View.whole main_v60).slice (win3_4.rect t)).set ↔ _
  rw [View.set_slice_whole, Rect.mem_set_unit]
  exact Iff.rfl

/-- The ten blocks cover the output: row `r` is in the block of point `r / 10000`. -/
theorem cover (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  obtain ⟨t, ht⟩ := idx_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 10000 ≤ (i 0).val ∧ (i 0).val < win3_4.index t (0 : Fin 2) * 10000 + 10000
    omega
  | ⟨1, _⟩ =>
    show win3_4.index t (1 : Fin 2) * 32 ≤ (i 1).val ∧ (i 1).val < win3_4.index t (1 : Fin 2) * 32 + 32
    omega

/-- The output array after the launch: the epilogue of the arrays the launch found. -/
theorem final (c : Dev nD) :
    (dat3 V c).arrAt 4 cfg3.N = epiArr (agg V c) (feat V c) (colOf (fac V c)) (rowOf (bias V c)) :=
  (dat3 V c).arrAt_eq_of_cover 4 _ (fun t _ => flushed_eq V c t) cover

end Cert.KernelIdeal.Epi3

end
-- ==== Proof.Fold2.lean ====
/-
  The buffer contents of the idealized kernel's @main through the second layer and the pooled prediction.

  The stretch after the third launch repeats the message passing on the second product: the reference's second message
  stage.  Fourth launch: the epilogue — the reference's second layer, the node embeddings.  The last stretch sums the
  embeddings per graph, divides by the node counts, applies the classifier and the logistic function, exactly the
  reference's operations on the same arrays: the reference's prediction stage.
-/
import proofs.«139690_j59768764891876_1_alg».proof.Defs
import proofs.«139690_j59768764891876_1_alg».proof.Proof.Gen.KernelIdeal.Frame
import proofs.«139690_j59768764891876_1_alg».proof.Proof.Gen.ReferenceIdeal.Read
import proofs.«139690_j59768764891876_1_alg».proof.Proof.Keep
import proofs.«139690_j59768764891876_1_alg».proof.Proof.Fold0
import proofs.«139690_j59768764891876_1_alg».proof.Proof.Fold1
import proofs.«139690_j59768764891876_1_alg».proof.Proof.Epi3
import proofs.«139690_j59768764891876_1_alg».proof.Proof.LibGcnEpilogue
import proofs.«139690_j59768764891876_1_alg».proof.Proof.RefLayers

set_option maxRecDepth 16384

noncomputable section

namespace Cert.KernelIdeal.Fold

open Cert.KernelIdeal Cert.KernelIdeal.Gen Cert.KernelIdeal.Keep Cert.KernelIdeal.Fold
open Cert.KernelIdeal.RegionValue (prodArr)
open Cert.GcnEpilogue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the fourth launch -/

/-- The second layer's messages, summed at the targets. -/
theorem W6_agg2 : W6 m ρ c (Proc.devRef .tc main_v57)
    = Cert.ReferenceIdeal.Read.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v57) = _
  after_results_simp
  rw [W5_h2, W5_src, W5_dst, W5_coef]
  rfl

/-- The second product is not written by the stretch. -/
theorem W6_h2 : W6 m ρ c (Proc.devRef .tc main_v44)
    = Cert.ReferenceIdeal.Read.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (keep_v44_6_5 m ρ c).trans (W5_h2 m ρ c)

/-- The per-node factor, laid out as a column by a cast. -/
theorem W6_fac : colOf (R := 100000) (W6 m ρ c (Proc.devRef .tc main_v59)) = Cert.ReferenceIdeal.Read.val_main_v40 (F := Ideal) (m ((c : Thread nD τ).loc main_arg1)) := by
  have h : W6 m ρ c (Proc.devRef .tc main_v59)
      = shapeCast _ (W5 m ρ c (Proc.devRef .tc main_v26)) shapeCasts_S100000_S100000x1 := by
    show StableHlo.after hostOps3 (W5 m ρ c) (Proc.devRef .tc main_v59) = _
    after_results_simp <;> rfl
  rw [h]
  exact (colOf_cast (R := 100000) _ shapeCasts_S100000_S100000x1).trans (W5_fac m ρ c)

/-- The second bias, laid out as a row by a cast. -/
theorem W6_bias : rowOf (N := 32) (W6 m ρ c (Proc.devRef .tc main_v58)) = (m ((c : Thread nD τ).loc main_arg6)) := by
  have h : W6 m ρ c (Proc.devRef .tc main_v58)
      = shapeCast _ (W5 m ρ c (Proc.devRef .tc main_arg6)) shapeCasts_S32_S1x32 := by
    show StableHlo.after hostOps3 (W5 m ρ c) (Proc.devRef .tc main_v58) = _
    after_results_simp <;> rfl
  rw [h]
  exact (rowOf_cast (N := 32) _ shapeCasts_S32_S1x32).trans (keep_arg6_5_0 m ρ c)

/-! ## After the fourth launch -/

/-- The fourth launch leaves the reference's second layer: the node embeddings. -/
theorem W7_out0 : W7 m ρ c (Proc.devRef .tc main_v60)
    = Cert.ReferenceIdeal.Read.val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ((Cert.KernelIdeal.Epi3.final (V6 m ρ) c).trans ?_)
  have e0 : Cert.KernelIdeal.Epi3.agg (V6 m ρ) c = Cert.ReferenceIdeal.Read.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := W6_agg2 m ρ c
  have e1 : Cert.KernelIdeal.Epi3.feat (V6 m ρ) c = Cert.ReferenceIdeal.Read.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := W6_h2 m ρ c
  have e2 : colOf (R := 100000) (Cert.KernelIdeal.Epi3.fac (V6 m ρ) c) = Cert.ReferenceIdeal.Read.val_main_v40 (F := Ideal) (m ((c : Thread nD τ).loc main_arg1)) := W6_fac m ρ c
  have e3 : rowOf (N := 32) (Cert.KernelIdeal.Epi3.bias (V6 m ρ) c) = (m ((c : Thread nD τ).loc main_arg6)) := W6_bias m ρ c
  exact (congr (congr (congr (congrArg (epiArr (R := 100000) (N := 32)) e0) e1) e2) e3).trans
    (Cert.ReferenceIdeal.Layers.layer2 _ _ _ _ _ _).symm

/-! ## At the return -/

/-- The node embeddings are not written by the pooling stretch. -/
theorem W8_out0 : W8 m ρ c (Proc.devRef .tc main_v60)
    = Cert.ReferenceIdeal.Read.val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (keep_v60_8_7 m ρ c).trans (W7_out0 m ρ c)

/-- The pooled prediction. -/
theorem W8_out1 : W8 m ρ c (Proc.devRef .tc main_v82)
    = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W7 m ρ c) (Proc.devRef .tc main_v82) = _
  after_results_simp
  rw [W7_out0, keep_arg2_7_0, keep_arg7_7_0, keep_arg8_7_0]
  rfl

end Cert.KernelIdeal.Fold

end
-- ==== Proof.lean ====
/-
  A two-layer graph convolution with mean pooling and a logistic classifier, as a tiled kernel, against its reference.

  Both programs compute, from the edge list, each edge's source and target, the per-edge coefficient
  dinv[src] · dinv[dst] and the per-node factor dinv², with dinv = (1 + in-degree)^(-1/2); then twice
      h = input · W,   messages = sum over edges into each target of h[src] · coefficient,
      output = max ((messages + h · factor) + bias, 0);
  then the per-graph mean of the second output, a linear classifier and the logistic function.  The kernel computes the two
  products and the two last lines in launches over ten blocks of 10000 rows; everything else is the same host operations
  in both programs.  Row p of a product, and row p of the last line, read row p of their tall operands only, so a launch's
  blocks are the rows of the whole-array product, or of the whole-array last line; the blocks tile the output.  Each
  boundary of the kernel's @main is thereby the reference's stage of the same meaning, applied to the kernel's arguments,
  down to the two results.  The narrowing of the products' operands to a shorter float format is the identity on the
  extended reals.  No law of arithmetic is used beyond reading sums and products term by term, so nothing needs to be
  finite and the precondition is not opened.
-/
import proofs.«139690_j59768764891876_1_alg».proof.Defs
import proofs.«139690_j59768764891876_1_alg».proof.Proof.Gen.Kernel
import proofs.«139690_j59768764891876_1_alg».proof.Proof.Gen.Kernel.Frame
import proofs.«139690_j59768764891876_1_alg».proof.Proof.Gen.KernelIdeal
import proofs.«139690_j59768764891876_1_alg».proof.Proof.Gen.KernelIdeal.Frame
import proofs.«139690_j59768764891876_1_alg».proof.Proof.Gen.ReferenceIdeal
import proofs.«139690_j59768764891876_1_alg».proof.Proof.Gen.ReferenceIdeal.Run
import proofs.«139690_j59768764891876_1_alg».proof.Proof.Gen.ReferenceIdeal.Read
import proofs.«139690_j59768764891876_1_alg».proof.Proof.Gen.Pre_finite_inputs
import proofs.«139690_j59768764891876_1_alg».proof.Proof.KRun
import proofs.«139690_j59768764891876_1_alg».proof.Proof.Fold2
import Idealize.ShloMosaic.Adequacy
import Idealize.ShloMosaic.Init

set_option maxRecDepth 16384

noncomputable section

namespace Cert.Proof

open Idealize.ShloMosaic Idealize.ShloMosaic.TcCoe Idealize.SL.Sem

/-- The idealized kernel's two results are the reference's two result stages of the kernel's arguments; the reference's
    run ends at the same stages of its own arguments, which are the kernel's. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.W8_out0 m ρ c), (h c).2.1.trans (Cert.KernelIdeal.Fold.W8_out1 m ρ c), (h c).2.2⟩)
      (Cert.KernelIdeal.KRun.run_values (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v93_eq, (hagree c).1, (hagree c).2.1, (hagree c).2.2.2.1,
        (hagree c).2.2.2.2.1, (hagree c).2.2.2.2.2.1, (hagree c).2.2.2.2.2.2.1]
    · rw [(h c).2.1, Cert.ReferenceIdeal.Read.val_main_v115_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
